-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x65536x3 : Shape := ⟨3, ![4, 65536, 3]⟩
abbrev S32 : Shape := ⟨1, ![32]⟩
abbrev S_ : Shape := ⟨0, ![]⟩

class Facts : Prop where
  bcast_S_S4x65536x3 : S_.BroadcastsInDim S4x65536x3 (![] : Fin 0 → Fin S4x65536x3.rank)
  reducesTo_S4x65536x3_S_d0_1_2 : S4x65536x3.ReducesTo [0, 1, 2] S_
  h_S_ : 0 < S_.numel
  bcast_S_S32 : S_.BroadcastsInDim S32 (![] : Fin 0 → Fin S32.rank)
  reducesTo_S32_S_d0 : S32.ReducesTo [0] S_

variable [Facts]

def fn {F : FTy → Type} [FloatOps F] (main_arg0 : FVec F S4x65536x3 .f32) (main_arg1 : FVec F S32 .f32) : IVec S_ 1 :=
  let main_v0 : FVec F S4x65536x3 .f32 := Host.absf main_arg0
  let main_cst : FVec F S_ .f32 := constant S_ .f32 0x7F800000#32
  let main_v1 : FVec F S4x65536x3 .f32 := broadcastInDim S4x65536x3 ![] bcast_S_S4x65536x3 main_cst
  let main_v2 : IVec S4x65536x3 1 := cmpf .olt main_v0 main_v1
  let main_c : IVec S_ 1 := constantI S_ 1 1#1
  let main_v3 : IVec S_ 1 := (fun x v => Host.reduce IntOp.andi x v reducesTo_S4x65536x3_S_d0_1_2 h_S_) main_v2 main_c
  let main_v4 : FVec F S32 .f32 := Host.absf main_arg1
  let main_cst_0 : FVec F S_ .f32 := constant S_ .f32 0x7F800000#32
  let main_v5 : FVec F S32 .f32 := broadcastInDim S32 ![] bcast_S_S32 main_cst_0
  let main_v6 : IVec S32 1 := cmpf .olt main_v4 main_v5
  let main_c_1 : IVec S_ 1 := constantI S_ 1 1#1
  let main_v7 : IVec S_ 1 := (fun x v => Host.reduce IntOp.andi x v reducesTo_S32_S_d0 h_S_) main_v6 main_c_1
  let main_v8 : IVec S_ 1 := andi main_v3 main_v7
  main_v8
-- ==== Kernel.lean ====
abbrev S4x65536x3 : Shape := ⟨3, ![4, 65536, 3]⟩
abbrev S32 : Shape := ⟨1, ![32]⟩
abbrev S384 : Shape := ⟨1, ![384]⟩
abbrev S_ : Shape := ⟨0, ![]⟩
abbrev S384x1 : Shape := ⟨2, ![384, 1]⟩
abbrev S1x384 : Shape := ⟨2, ![1, 384]⟩
abbrev S4x65536x384 : Shape := ⟨3, ![4, 65536, 384]⟩
abbrev S1x8192x3 : Shape := ⟨3, ![1, 8192, 3]⟩
abbrev S1x8192x384 : Shape := ⟨3, ![1, 8192, 384]⟩
abbrev S1x8192x1 : Shape := ⟨3, ![1, 8192, 1]⟩
abbrev S8192x1 : Shape := ⟨2, ![8192, 1]⟩
abbrev S8192x384 : Shape := ⟨2, ![8192, 384]⟩
abbrev S4x65536x192x2 : Shape := ⟨4, ![4, 65536, 192, 2]⟩

abbrev nBuf : Space → Nat
  | .hbm => 27
  | .vmem => 9
  | .smem => 0
  | _ => 0

abbrev bufTy : (tb : Table) → Fin (tcTables nBuf tb) → BufTy
  | .hbm, ⟨0, _⟩ => ⟨S4x65536x3, .f32⟩
  | .hbm, ⟨1, _⟩ => ⟨S32, .f32⟩
  | .hbm, ⟨2, _⟩ => ⟨S384, .i32⟩
  | .hbm, ⟨3, _⟩ => ⟨S384, .f32⟩
  | .hbm, ⟨4, _⟩ => ⟨S384, .f32⟩
  | .hbm, ⟨5, _⟩ => ⟨S384, .f32⟩
  | .hbm, ⟨6, _⟩ => ⟨S384, .f32⟩
  | .hbm, ⟨7, _⟩ => ⟨S384, .f32⟩
  | .hbm, ⟨8, _⟩ => ⟨S_, .i32⟩
  | .hbm, ⟨9, _⟩ => ⟨S384, .i32⟩
  | .hbm, ⟨10, _⟩ => ⟨S384, .i1⟩
  | .hbm, ⟨11, _⟩ => ⟨S_, .i32⟩
  | .hbm, ⟨12, _⟩ => ⟨S384, .i32⟩
  | .hbm, ⟨13, _⟩ => ⟨S384, .i32⟩
  | .hbm, ⟨14, _⟩ => ⟨S384, .i32⟩
  | .hbm, ⟨15, _⟩ => ⟨S384x1, .i32⟩
  | .hbm, ⟨16, _⟩ => ⟨S384, .f32⟩
  | .hbm, ⟨17, _⟩ => ⟨S384, .f32⟩
  | .hbm, ⟨18, _⟩ => ⟨S1x384, .f32⟩
  | .hbm, ⟨19, _⟩ => ⟨S384, .f32⟩
  | .hbm, ⟨20, _⟩ => ⟨S1x384, .f32⟩
  | .hbm, ⟨21, _⟩ => ⟨S384, .f32⟩
  | .hbm, ⟨22, _⟩ => ⟨S1x384, .f32⟩
  | .hbm, ⟨23, _⟩ => ⟨S1x384, .f32⟩
  | .hbm, ⟨24, _⟩ => ⟨S1x384, .f32⟩
  | .hbm, ⟨25, _⟩ => ⟨S4x65536x384, .f32⟩
  | .hbm, ⟨26, _⟩ => ⟨S4x65536x192x2, .f32⟩
  | .local _ .vmem, ⟨0, _⟩ => ⟨S1x8192x3, .f32⟩
  | .local _ .vmem, ⟨1, _⟩ => ⟨S1x8192x3, .f32⟩
  | .local _ .vmem, ⟨2, _⟩ => ⟨S1x384, .f32⟩
  | .local _ .vmem, ⟨3, _⟩ => ⟨S1x384, .f32⟩
  | .local _ .vmem, ⟨4, _⟩ => ⟨S1x384, .f32⟩
  | .local _ .vmem, ⟨5, _⟩ => ⟨S1x384, .f32⟩
  | .local _ .vmem, ⟨6, _⟩ => ⟨S1x384, .f32⟩
  | .local _ .vmem, ⟨7, _⟩ => ⟨S1x8192x384, .f32⟩
  | .local _ .vmem, ⟨8, _⟩ => ⟨S1x8192x384, .f32⟩
  | _, _ => ⟨S4x65536x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_cst_2 : Ref sig .tc := ⟨.hbm, 6, rfl⟩
abbrev main_cst_3 : Ref sig .tc := ⟨.hbm, 7, rfl⟩
abbrev main_c_4 : Ref sig .tc := ⟨.hbm, 8, rfl⟩
abbrev main_v0 : Ref sig .tc := ⟨.hbm, 9, rfl⟩
abbrev main_v1 : Ref sig .tc := ⟨.hbm, 10, rfl⟩
abbrev main_c_5 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8192x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8192x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bcast_S_S384 : S_.BroadcastsInDim S384 (![] : Fin 0 → Fin S384.rank)
  bcast_S384_S384x1_0 : S384.BroadcastsInDim S384x1 (![0] : Fin 1 → Fin S384x1.rank)
  shapeCasts_S384_S1x384 : S384.ShapeCasts S1x384
  inb_S1x8192x3_S1x8192x1_0_0_0 : ∀ a, (![0, 0, 0] : Fin 3 → Nat) a + S1x8192x1.size a ≤ S1x8192x3.size a
  h_S1x8192x1 : 0 < S1x8192x1.numel
  shapeCasts_S1x8192x1_S8192x1 : S1x8192x1.ShapeCasts S8192x1
  inb_S1x8192x3_S1x8192x1_0_0_1 : ∀ a, (![0, 0, 1] : Fin 3 → Nat) a + S1x8192x1.size a ≤ S1x8192x3.size a
  inb_S1x8192x3_S1x8192x1_0_0_2 : ∀ a, (![0, 0, 2] : Fin 3 → Nat) a + S1x8192x1.size a ≤ S1x8192x3.size a
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S8192x1_S8192x384 : S8192x1.Broadcasts S8192x384
  broadcasts_S1x384_S8192x384 : S1x384.Broadcasts S8192x384
  inb_S1x8192x384_S1x8192x384_0_0_0 : ∀ a, (![0, 0, 0] : Fin 3 → Nat) a + S1x8192x384.size a ≤ S1x8192x384.size a
  h_S1x8192x384 : 0 < S1x8192x384.numel
  shapeCasts_S1x8192x384_S8192x384 : S1x8192x384.ShapeCasts S8192x384
  shapeCasts_S8192x384_S1x8192x384 : S8192x384.ShapeCasts S1x8192x384
  shapeCasts_S4x65536x384_S4x65536x192x2 : S4x65536x384.ShapeCasts S4x65536x192x2
  gather_S32_S384x1_S384_n_0_n_n_0_1_1_wf : GatherDims.WF S32 S384x1 S384 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x3.size a ≤ S4x65536x3.size a
  hwx0_0 : ∀ i : grid0.Coords, EltTy.bits .f32 = 32 ∨ (Rect.block (s := S4x65536x3) S1x8192x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x384.size a ≤ S1x384.size a
  hwx0_1 : ∀ i : grid0.Coords, EltTy.bits .f32 = 32 ∨ (Rect.block (s := S1x384) S1x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x384.size a ≤ S1x384.size a
  hwx0_3 : ∀ i : grid0.Coords, EltTy.bits .f32 = 32 ∨ (Rect.block (s := S1x384) S1x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x384.size a ≤ S1x384.size a
  hwx0_4 : ∀ i : grid0.Coords, EltTy.bits .f32 = 32 ∨ (Rect.block (s := S1x384) S1x384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x384.size a ≤ S1x384.size a
  hwx0_5 : ∀ i : grid0.Coords, EltTy.bits .f32 = 32 ∨ (Rect.block (s := S1x384) S1x384.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8192x384.size a ≤ S4x65536x384.size a
  hwx0_6 : ∀ i : grid0.Coords, EltTy.bits .f32 = 32 ∨ (Rect.block (s := S4x65536x384) S1x8192x384.size (cc0_transform_6 i) (hinb0_6 i)).WholeWords (EltTy.packing .f32)

variable [Facts₀]

def gather_S32_S384x1_S384_n_0_n_n_0_1_1 : GatherDims S32 S384x1 S384 where
  offsetDims := []
  collapsedSliceDims := [0]
  operandBatchingDims := []
  startIndicesBatchingDims := []
  startIndexMap := [0]
  indexVectorDim := 1
  sliceSizes := ![1]
  wf := gather_S32_S384x1_S384_n_0_n_n_0_1_1_wf

abbrev win0_0 : Pipeline.Window sig grid0 :=
  Pipeline.Window.ofSpec (Memref.whole main_arg0) S1x8192x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x8192x384.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x65536x3 : Shape := ⟨3, ![4, 65536, 3]⟩
abbrev S32 : Shape := ⟨1, ![32]⟩
abbrev S4x65536x3x1 : Shape := ⟨4, ![4, 65536, 3, 1]⟩
abbrev S1x1x1x32 : Shape := ⟨4, ![1, 1, 1, 32]⟩
abbrev S4x65536x3x32 : Shape := ⟨4, ![4, 65536, 3, 32]⟩
abbrev S4x65536x3x32x1 : Shape := ⟨5, ![4, 65536, 3, 32, 1]⟩
abbrev S4x65536x3x32x2 : Shape := ⟨5, ![4, 65536, 3, 32, 2]⟩
abbrev S4x65536x32x3x2 : Shape := ⟨5, ![4, 65536, 32, 3, 2]⟩
abbrev S4x65536x192 : Shape := ⟨3, ![4, 65536, 192]⟩
abbrev S4x65536x192x1 : Shape := ⟨4, ![4, 65536, 192, 1]⟩
abbrev S4x65536x192x2 : Shape := ⟨4, ![4, 65536, 192, 2]⟩

abbrev nBuf : Space → Nat
  | .hbm => 22
  | .vmem => 0
  | .smem => 0
  | _ => 0

abbrev bufTy : (tb : Table) → Fin (tcTables nBuf tb) → BufTy
  | .hbm, ⟨0, _⟩ => ⟨S4x65536x3, .f32⟩
  | .hbm, ⟨1, _⟩ => ⟨S32, .f32⟩
  | .hbm, ⟨2, _⟩ => ⟨S4x65536x3x1, .f32⟩
  | .hbm, ⟨3, _⟩ => ⟨S1x1x1x32, .f32⟩
  | .hbm, ⟨4, _⟩ => ⟨S4x65536x3x32, .f32⟩
  | .hbm, ⟨5, _⟩ => ⟨S4x65536x3x32, .f32⟩
  | .hbm, ⟨6, _⟩ => ⟨S4x65536x3x32, .f32⟩
  | .hbm, ⟨7, _⟩ => ⟨S4x65536x3x32, .f32⟩
  | .hbm, ⟨8, _⟩ => ⟨S4x65536x3x32, .f32⟩
  | .hbm, ⟨9, _⟩ => ⟨S4x65536x3x32x1, .f32⟩
  | .hbm, ⟨10, _⟩ => ⟨S4x65536x3x32x1, .f32⟩
  | .hbm, ⟨11, _⟩ => ⟨S4x65536x3x32x2, .f32⟩
  | .hbm, ⟨12, _⟩ => ⟨S4x65536x32x3x2, .f32⟩
  | .hbm, ⟨13, _⟩ => ⟨S4x65536x192, .f32⟩
  | .hbm, ⟨14, _⟩ => ⟨S4x65536x3x32x1, .f32⟩
  | .hbm, ⟨15, _⟩ => ⟨S4x65536x3x32x1, .f32⟩
  | .hbm, ⟨16, _⟩ => ⟨S4x65536x3x32x2, .f32⟩
  | .hbm, ⟨17, _⟩ => ⟨S4x65536x32x3x2, .f32⟩
  | .hbm, ⟨18, _⟩ => ⟨S4x65536x192, .f32⟩
  | .hbm, ⟨19, _⟩ => ⟨S4x65536x192x1, .f32⟩
  | .hbm, ⟨20, _⟩ => ⟨S4x65536x192x1, .f32⟩
  | .hbm, ⟨21, _⟩ => ⟨S4x65536x192x2, .f32⟩
  | _, _ => ⟨S4x65536x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩

abbrev nD : Nat := 1
abbrev τ : Topo := Topo.v7x

variable {F : FTy → Type} [FloatOps F]

class Facts₀ : Prop where
  bcast_S4x65536x3_S4x65536x3x1_0_1_2 : S4x65536x3.BroadcastsInDim S4x65536x3x1 (![0, 1, 2] : Fin 3 → Fin S4x65536x3x1.rank)
  bcast_S32_S1x1x1x32_3 : S32.BroadcastsInDim S1x1x1x32 (![3] : Fin 1 → Fin S1x1x1x32.rank)
  bcast_S4x65536x3x1_S4x65536x3x32_0_1_2_3 : S4x65536x3x1.BroadcastsInDim S4x65536x3x32 (![0, 1, 2, 3] : Fin 4 → Fin S4x65536x3x32.rank)
  bcast_S1x1x1x32_S4x65536x3x32_0_1_2_3 : S1x1x1x32.BroadcastsInDim S4x65536x3x32 (![0, 1, 2, 3] : Fin 4 → Fin S4x65536x3x32.rank)
  bcast_S4x65536x3x32_S4x65536x3x32x1_0_1_2_3 : S4x65536x3x32.BroadcastsInDim S4x65536x3x32x1 (![0, 1, 2, 3] : Fin 4 → Fin S4x65536x3x32x1.rank)
  concatenates_S4x65536x3x32x1_S4x65536x3x32x1_S4x65536x3x32x2_d4 : Shape.Concatenates [S4x65536x3x32x1, S4x65536x3x32x1] S4x65536x3x32x2 4
  transposes_S4x65536x3x32x2_S4x65536x32x3x2_0_1_3_2_4 : S4x65536x3x32x2.Transposes [0, 1, 3, 2, 4] S4x65536x32x3x2
  shapeCasts_S4x65536x32x3x2_S4x65536x192 : S4x65536x32x3x2.ShapeCasts S4x65536x192
  bcast_S4x65536x192_S4x65536x192x1_0_1_2 : S4x65536x192.BroadcastsInDim S4x65536x192x1 (![0, 1, 2] : Fin 3 → Fin S4x65536x192x1.rank)
  concatenates_S4x65536x192x1_S4x65536x192x1_S4x65536x192x2_d3 : Shape.Concatenates [S4x65536x192x1, S4x65536x192x1] S4x65536x192x2 3

variable [Facts₀]

class Facts : Prop extends Facts₀ where

variable [Facts]
-- ==== Proof.RopeSpec.lean ====
/-
  The three-dimensional rotary position code, as a function of the points and the frequencies, and the law that joins
  its two arrangements.

  A point has three coordinates x, y, z (axis a = 0, 1, 2) and there are 32 frequencies f_0 … f_31. Feature
  j = 6 i + 2 a + d (i the frequency, a the axis, d = 0, 1 a duplicate) of a point has the angle  coordinate a times f_i,
  and the code holds its cosine at c = 0 and its sine at c = 1:  code[b, n, j, c] = cos or sin (xyz[b, n, a] · f_i).

  Laid out flat, lane k = 2 j + c = 12 i + 4 a + 2 d + c of a 384-wide row. The other arrangement computes on every lane
  the sum  x · (f_i · [a = 0]) + y · (f_i · [a = 1]) + z · (f_i · [a = 2])  with one-hot factors 1 and 0, and then
  cos(·) · [c = 0] + sin(·) · [c = 1].  On the extended reals a product with 0 is 0, a product with 1 and a sum with 0
  change nothing — at the infinities too — so the sum is the one selected product and the result the selected
  function: no finiteness is needed.
-/
import Idealize.ShloMosaic.PureOps.Ideal
import Idealize.ShloMosaic.PureOps.Ideal.Laws
import Idealize.ShloMosaic.Lib.IdealHost
import Idealize.ShloMosaic.Lib.ValueIdx
import Idealize.ShloMosaic.Lib.Pipeline.Value

noncomputable section

namespace Cert.Rope

open Idealize.ShloMosaic Idealize.ShloMosaic.ValueIdx

/-- The points: batch, point, coordinate. -/
abbrev SX : Shape := ⟨3, ![4, 65536, 3]⟩
/-- The frequencies. -/
abbrev SD : Shape := ⟨1, ![32]⟩
/-- The code: batch, point, feature, cosine or sine. -/
abbrev SO : Shape := ⟨4, ![4, 65536, 192, 2]⟩
/-- The code with feature and cosine-or-sine laid flat on 384 lanes. -/
abbrev SW : Shape := ⟨3, ![4, 65536, 384]⟩

/-- The angle of feature `j` of point `(b, n)`: coordinate `(j / 2) % 3` times frequency `j / 6`. -/
def angle (xyz : SX.Idx → EReal) (dv : SD.Idx → EReal) (b : Fin 4) (n : Fin 65536) (j : Fin 192) : EReal :=
  xyz (ix3 b n ⟨j.val / 2 % 3, Nat.mod_lt _ (by decide)⟩) * dv (ix1 ⟨j.val / 6, by have := j.isLt; omega⟩)

/-- The code at its coordinates: the angle's cosine at `c = 0`, its sine at `c = 1`. -/
def codeAt (xyz : SX.Idx → EReal) (dv : SD.Idx → EReal) (b : Fin 4) (n : Fin 65536) (j : Fin 192) (c : Fin 2) : EReal :=
  if c.val = 0 then Ideal.cos (angle xyz dv b n j) else Ideal.sin (angle xyz dv b n j)

/-- THE CODE, index by index. -/
def code (xyz : SX.Idx → EReal) (dv : SD.Idx → EReal) : SO.Idx → EReal :=
  fun i => codeAt xyz dv (i 0) (i 1) (i 2) (i 3)

/-! ## The flat arrangement, lane by lane -/

/-- The one-hot factor of axis `a` on lane `k`: one where `(k / 4) % 3 = a`. -/
def onAxis (a k : Nat) : EReal := if k / 4 % 3 = a then 1 else 0
/-- One on the cosine lanes (the even ones). -/
def cosLane (k : Nat) : EReal := if k % 2 = 0 then 1 else 0
/-- One on the sine lanes (the odd ones). -/
def sinLane (k : Nat) : EReal := if k % 2 = 0 then 0 else 1

/-- What the flat arrangement computes on lane `k` from a point's coordinates `x y z` and the lane's frequency `f`. -/
def lane (x y z f : EReal) (k : Nat) : EReal :=
  Ideal.cos (x * (f * onAxis 0 k) + y * (f * onAxis 1 k) + z * (f * onAxis 2 k)) * cosLane k
    + Ideal.sin (x * (f * onAxis 0 k) + y * (f * onAxis 1 k) + z * (f * onAxis 2 k)) * sinLane k

/-- The coordinate lane `k` selects. -/
def pick (x y z : EReal) (k : Nat) : EReal := if k / 4 % 3 = 0 then x else if k / 4 % 3 = 1 then y else z

/-- THE LAW: the one-hot sum is the selected product, and the masked pair the selected function. -/
theorem lane_eq (x y z f : EReal) (k : Nat) :
    lane x y z f k = if k % 2 = 0 then Ideal.cos (pick x y z k * f) else Ideal.sin (pick x y z k * f) := by
  have ha : k / 4 % 3 = 0 ∨ k / 4 % 3 = 1 ∨ k / 4 % 3 = 2 := by omega
  have hang : x * (f * onAxis 0 k) + y * (f * onAxis 1 k) + z * (f * onAxis 2 k) = pick x y z k * f := by
    unfold onAxis pick
    rcases ha with h | h | h <;> simp [h]
  unfold lane
  rw [hang]
  unfold cosLane sinLane
  by_cases hc : k % 2 = 0 <;> simp [hc]

/-- The code laid flat: lane `k` of point `(b, n)` from the point's three coordinates and frequency `k / 12`. -/
def wide (xyz : SX.Idx → EReal) (dv : SD.Idx → EReal) : SW.Idx → EReal := fun i =>
  lane (xyz (ix3 (i 0) (i 1) ⟨0, by decide⟩)) (xyz (ix3 (i 0) (i 1) ⟨1, by decide⟩)) (xyz (ix3 (i 0) (i 1) ⟨2, by decide⟩))
    (dv (ix1 ⟨(i 2).val / 12, by have h : (i 2).val < 384 := (i 2).isLt; omega⟩)) (i 2).val

/-- Lane `2 j + c` of the flat arrangement is entry `(j, c)` of the code. -/
theorem wide_apply (xyz : SX.Idx → EReal) (dv : SD.Idx → EReal) (b : Fin 4) (n : Fin 65536) (j : Fin 192) (c : Fin 2)
    (k : Fin 384) (hk : k.val = 2 * j.val + c.val) :
    wide xyz dv (ix3 b n k) = codeAt xyz dv b n j c := by
  have hj := j.isLt
  have hc := c.isLt
  show lane _ _ _ _ k.val = _
  rw [lane_eq]
  unfold codeAt angle pick
  have e6 : k.val / 12 = j.val / 6 := by omega
  have e3 : k.val / 4 % 3 = j.val / 2 % 3 := by omega
  have e2 : (k.val % 2 = 0) ↔ (c.val = 0) := by omega
  have hd : dv (ix1 ⟨k.val / 12, by omega⟩) = dv (ix1 ⟨j.val / 6, by omega⟩) := by
    congr 2; exact Fin.ext e6
  have hx : (if k.val / 4 % 3 = 0 then xyz (ix3 b n ⟨0, by decide⟩) else if k.val / 4 % 3 = 1 then xyz (ix3 b n ⟨1, by decide⟩)
      else xyz (ix3 b n ⟨2, by decide⟩)) = xyz (ix3 b n ⟨j.val / 2 % 3, Nat.mod_lt _ (by decide)⟩) := by
    have ha : j.val / 2 % 3 = 0 ∨ j.val / 2 % 3 = 1 ∨ j.val / 2 % 3 = 2 := by omega
    rcases ha with h | h | h
    · rw [if_pos (e3.trans h)]; congr 2; exact Fin.ext h.symm
    · rw [if_neg (by omega), if_pos (e3.trans h)]; congr 2; exact Fin.ext h.symm
    · rw [if_neg (by omega), if_neg (by omega)]; congr 2; exact Fin.ext h.symm
  rw [hx, hd]
  by_cases h0 : c.val = 0
  · rw [if_pos (e2.mpr h0), if_pos h0]
  · rw [if_neg (fun h => h0 (e2.mp h)), if_neg h0]

/-- THE RESHAPE: the flat arrangement regrouped `[4, 65536, 384] → [4, 65536, 192, 2]` is the code. -/
theorem shapeCast_wide (xyz : SX.Idx → EReal) (dv : SD.Idx → EReal) (h : SW.ShapeCasts SO) :
    shapeCast SO (wide xyz dv) h = code xyz dv := by
  funext i
  obtain ⟨b, n, j, c, rfl⟩ : ∃ (b : Fin 4) (n : Fin 65536) (j : Fin 192) (c : Fin 2), i = ix4 b n j c :=
    ⟨i 0, i 1, i 2, i 3, eq_ix4 i⟩
  have hj := j.isLt
  have hc := c.isLt
  rw [shapeCast_apply (wide xyz dv) h (ix4 b n j c) (ix3 b n ⟨2 * j.val + c.val, by omega⟩) (by
    rw [Shape.rowMajor_val_three, Shape.rowMajor_val_four]
    show (b.val * 65536 + n.val) * 384 + (2 * j.val + c.val) = ((b.val * 65536 + n.val) * 192 + j.val) * 2 + c.val
    omega)]
  exact wide_apply xyz dv b n j c _ rfl

end Cert.Rope

end
-- ==== Proof.RopeRef.lean ====
/-
  The reference computes the code.

  It multiplies every coordinate by every frequency (an array [4, 65536, 3, 32]), takes cosine and sine, and re-lays
  each: two copies joined on a new last axis (the duplicate d), the axes of coordinate and frequency swapped, the three
  axes (frequency, coordinate, duplicate) = (32, 3, 2) flattened to the 192 features, so that feature
  j = 6 i + 2 a + d reads the product at coordinate a = (j / 2) % 3 and frequency i = j / 6, whatever d is; last the
  cosine and sine arrays are joined on a new last axis c.
-/
import proofs.«138072_j22995254902939_2_alg».proof.Proof.Gen.ReferenceIdeal.Read
import proofs.«138072_j22995254902939_2_alg».proof.Proof.RopeSpec

noncomputable section

namespace Cert.ReferenceIdeal.RefRope

open Cert.ReferenceIdeal Cert.ReferenceIdeal.Gen Cert.ReferenceIdeal.Read Idealize.ShloMosaic Idealize.ShloMosaic.ValueIdx Cert.Rope

/-- Two pieces with a last axis of extent one, joined on that axis, read at `(…, d)`: the first piece at `d = 0`,
    the second at `d = 1`, each at `(…, 0)`. -/
theorem join_last5 (y₁ y₂ : S4x65536x3x32x1.Idx → EReal) (b : Fin 4) (n : Fin 65536) (a : Fin 3) (i : Fin 32) (d : Fin 2) :
    concatenate S4x65536x3x32x2 4 [⟨S4x65536x3x32x1, y₁⟩, ⟨S4x65536x3x32x1, y₂⟩]
        concatenates_S4x65536x3x32x1_S4x65536x3x32x1_S4x65536x3x32x2_d4 (ix5 b n a i d)
      = if d.val = 0 then y₁ (ix5 b n a i ⟨0, Nat.one_pos⟩) else y₂ (ix5 b n a i ⟨0, Nat.one_pos⟩) := by
  have hd := d.isLt
  by_cases h0 : d.val = 0
  · rw [if_pos h0]
    refine concatenate_pair_apply_left _ y₁ y₂ _ (ix5 b n a i d) rfl (ix5 b n a i ⟨0, Nat.one_pos⟩) (fun bb => ?_)
    match bb with
    | ⟨0, _⟩ => rfl
    | ⟨1, _⟩ => rfl
    | ⟨2, _⟩ => rfl
    | ⟨3, _⟩ => rfl
    | ⟨4, _⟩ => show 0 = d.val; omega
  · rw [if_neg h0]
    refine concatenate_pair_apply_right _ y₁ y₂ _ (ix5 b n a i d) rfl rfl (ix5 b n a i ⟨0, Nat.one_pos⟩) (fun bb hne => ?_) ?_
    · match bb, hne with
      | ⟨0, _⟩, _ => rfl
      | ⟨1, _⟩, _ => rfl
      | ⟨2, _⟩, _ => rfl
      | ⟨3, _⟩, _ => rfl
      | ⟨4, _⟩, hne => exact absurd rfl hne
    · show 0 + 1 = d.val; omega

/-- The same for the last join, of the cosine and sine arrays `[4, 65536, 192, 1]` on the axis `c`. -/
theorem join_last4 (y₁ y₂ : S4x65536x192x1.Idx → EReal) (b : Fin 4) (n : Fin 65536) (j : Fin 192) (c : Fin 2) :
    concatenate S4x65536x192x2 3 [⟨S4x65536x192x1, y₁⟩, ⟨S4x65536x192x1, y₂⟩]
        concatenates_S4x65536x192x1_S4x65536x192x1_S4x65536x192x2_d3 (ix4 b n j c)
      = if c.val = 0 then y₁ (ix4 b n j ⟨0, Nat.one_pos⟩) else y₂ (ix4 b n j ⟨0, Nat.one_pos⟩) := by
  have hc := c.isLt
  by_cases h0 : c.val = 0
  · rw [if_pos h0]
    refine concatenate_pair_apply_left _ y₁ y₂ _ (ix4 b n j c) rfl (ix4 b n j ⟨0, Nat.one_pos⟩) (fun bb => ?_)
    match bb with
    | ⟨0, _⟩ => rfl
    | ⟨1, _⟩ => rfl
    | ⟨2, _⟩ => rfl
    | ⟨3, _⟩ => show 0 = c.val; omega
  · rw [if_neg h0]
    refine concatenate_pair_apply_right _ y₁ y₂ _ (ix4 b n j c) rfl rfl (ix4 b n j ⟨0, Nat.one_pos⟩) (fun bb hne => ?_) ?_
    · match bb, hne with
      | ⟨0, _⟩, _ => rfl
      | ⟨1, _⟩, _ => rfl
      | ⟨2, _⟩, _ => rfl
      | ⟨3, _⟩, hne => exact absurd rfl hne
    · show 0 + 1 = c.val; omega

/-- The product array at `(b, n, a, i)`: coordinate `a` of the point times frequency `i`. -/
theorem prod_apply (x0 : SX.Idx → EReal) (x1 : SD.Idx → EReal) (b : Fin 4) (n : Fin 65536) (a : Fin 3) (i : Fin 32) :
    val_main_v4 (F := Ideal) x0 x1 (ix4 b n a i) = x0 (ix3 b n a) * x1 (ix1 i) := by
  rw [val_main_v4_apply, val_main_v2_apply, val_main_v0_apply, val_main_v3_apply, val_main_v1_apply, Ideal.mulf_def]
  congr 2
  · funext e; apply Fin.ext
    match e with
    | ⟨0, _⟩ => rfl
    | ⟨1, _⟩ => rfl
    | ⟨2, _⟩ => rfl
  · funext e; apply Fin.ext
    match e with
    | ⟨0, _⟩ => rfl

/-- The index of the product array that feature `j` of point `(b, n)` reads. -/
theorem feature_idx (b : Fin 4) (n : Fin 65536) (j : Fin 192) :
    (idx_main_v10 (idx_main_v11 (ix3 b n j)) : S4x65536x3x32x2.Idx)
      = ix5 b n ⟨j.val / 2 % 3, Nat.mod_lt _ (by decide)⟩ ⟨j.val / 6, by have := j.isLt; omega⟩ ⟨j.val % 2, Nat.mod_lt _ (by decide)⟩ := by
  have hb := b.isLt
  have hn := n.isLt
  have hj := j.isLt
  funext e; apply Fin.ext
  match e with
  | ⟨0, _⟩ => show ((b.val * 65536 + n.val) * 192 + j.val) / 12582912 = b.val; omega
  | ⟨1, _⟩ => show ((b.val * 65536 + n.val) * 192 + j.val) / 192 % 65536 = n.val; omega
  | ⟨2, _⟩ => show ((b.val * 65536 + n.val) * 192 + j.val) / 2 % 3 = j.val / 2 % 3; omega
  | ⟨3, _⟩ => show ((b.val * 65536 + n.val) * 192 + j.val) / 6 % 32 = j.val / 6; omega
  | ⟨4, _⟩ => show ((b.val * 65536 + n.val) * 192 + j.val) % 2 = j.val % 2; omega

/-- The re-laid cosine array at feature `j`: the cosine of the feature's angle. -/
theorem cos_feature (x0 : SX.Idx → EReal) (x1 : SD.Idx → EReal) (b : Fin 4) (n : Fin 65536) (j : Fin 192) :
    val_main_v11 (F := Ideal) x0 x1 (ix3 b n j) = Ideal.cos (angle x0 x1 b n j) := by
  rw [val_main_v11_apply, val_main_v10_apply, feature_idx]
  unfold val_main_v9
  rw [join_last5]
  have e : ∀ (a : Fin 3) (i : Fin 32), (idx_main_v7 (ix5 b n a i ⟨0, Nat.one_pos⟩) : S4x65536x3x32.Idx) = ix4 b n a i := fun a i => by
    funext e; apply Fin.ext
    match e with
    | ⟨0, _⟩ => rfl
    | ⟨1, _⟩ => rfl
    | ⟨2, _⟩ => rfl
    | ⟨3, _⟩ => rfl
  rw [val_main_v7_apply, val_main_v8_apply]
  rw [show (idx_main_v8 (ix5 b n (⟨j.val / 2 % 3, Nat.mod_lt _ (by decide)⟩ : Fin 3) (⟨j.val / 6, by have := j.isLt; omega⟩ : Fin 32) ⟨0, Nat.one_pos⟩) : S4x65536x3x32.Idx)
      = idx_main_v7 (ix5 b n (⟨j.val / 2 % 3, Nat.mod_lt _ (by decide)⟩ : Fin 3) (⟨j.val / 6, by have := j.isLt; omega⟩ : Fin 32) ⟨0, Nat.one_pos⟩) from rfl, ite_self, e,
    val_main_v5_apply, prod_apply, Ideal.hostUnary_cos_def]
  rfl

/-- The re-laid sine array at feature `j`: the sine of the feature's angle. -/
theorem sin_feature (x0 : SX.Idx → EReal) (x1 : SD.Idx → EReal) (b : Fin 4) (n : Fin 65536) (j : Fin 192) :
    val_main_v16 (F := Ideal) x0 x1 (ix3 b n j) = Ideal.sin (angle x0 x1 b n j) := by
  rw [val_main_v16_apply, val_main_v15_apply, show idx_main_v16 (ix3 b n j) = idx_main_v11 (ix3 b n j) from rfl,
    show idx_main_v15 (idx_main_v11 (ix3 b n j)) = idx_main_v10 (idx_main_v11 (ix3 b n j)) from rfl, feature_idx]
  unfold val_main_v14
  rw [join_last5]
  have e : ∀ (a : Fin 3) (i : Fin 32), (idx_main_v12 (ix5 b n a i ⟨0, Nat.one_pos⟩) : S4x65536x3x32.Idx) = ix4 b n a i := fun a i => by
    funext e; apply Fin.ext
    match e with
    | ⟨0, _⟩ => rfl
    | ⟨1, _⟩ => rfl
    | ⟨2, _⟩ => rfl
    | ⟨3, _⟩ => rfl
  rw [val_main_v12_apply, val_main_v13_apply]
  rw [show (idx_main_v13 (ix5 b n (⟨j.val / 2 % 3, Nat.mod_lt _ (by decide)⟩ : Fin 3) (⟨j.val / 6, by have := j.isLt; omega⟩ : Fin 32) ⟨0, Nat.one_pos⟩) : S4x65536x3x32.Idx)
      = idx_main_v12 (ix5 b n (⟨j.val / 2 % 3, Nat.mod_lt _ (by decide)⟩ : Fin 3) (⟨j.val / 6, by have := j.isLt; omega⟩ : Fin 32) ⟨0, Nat.one_pos⟩) from rfl, ite_self, e,
    val_main_v6_apply, prod_apply, Ideal.hostUnary_sin_def]
  rfl

/-- THE REFERENCE'S RESULT IS THE CODE. -/
theorem result_eq (x0 : SX.Idx → EReal) (x1 : SD.Idx → EReal) : val_main_v19 (F := Ideal) x0 x1 = code x0 x1 := by
  funext i
  obtain ⟨b, n, j, c, rfl⟩ : ∃ (b : Fin 4) (n : Fin 65536) (j : Fin 192) (c : Fin 2), i = ix4 b n j c :=
    ⟨i 0, i 1, i 2, i 3, eq_ix4 i⟩
  unfold val_main_v19
  rw [join_last4, val_main_v17_apply, val_main_v18_apply]
  have e17 : (idx_main_v17 (ix4 b n j ⟨0, Nat.one_pos⟩) : S4x65536x192.Idx) = ix3 b n j := by
    funext e; apply Fin.ext
    match e with
    | ⟨0, _⟩ => rfl
    | ⟨1, _⟩ => rfl
    | ⟨2, _⟩ => rfl
  rw [show (idx_main_v18 (ix4 b n j ⟨0, Nat.one_pos⟩) : S4x65536x192.Idx) = idx_main_v17 (ix4 b n j ⟨0, Nat.one_pos⟩) from rfl, e17,
    cos_feature, sin_feature]
  rfl

end Cert.ReferenceIdeal.RefRope

end
-- ==== Proof.LibRows.lean ====
/-
  `stablehlo.gather` of whole rows of a matrix, and of single elements of a flat array, read at an index.

  What `x[idx]` lowers to when `x : [N, C]` is a matrix and `idx : [R, 1]` a column of integer row numbers: a gather with
  offset_dims `[1]`, collapsed_slice_dims `[0]`, start_index_map `[0]`, index_vector_dim 1 and slice_sizes `[1, C]`.
  Result element `(r, c)` is `x` at row `idx[r, 0]` — read as a signed integer and clamped into `[0, N − 1]`, as
  StableHLO's gather clamps every start index — and column `c`. The same with a flat operand `x : [N]` (offset_dims
  `[]`, slice_sizes `[1]`): result element `r` is `x` at the clamped `idx[r, 0]`.
-/
import Idealize.ShloMosaic.Lib.ValueIdx

namespace Cert.LibRows

open Idealize.ShloMosaic Idealize.ShloMosaic.ValueIdx

section Rows
variable {α : Type}

/-- The dimension numbers of a gather of whole rows: operand `[N, C]`, start indices `[R, 1]`, result `[R, C]`; the
    result's axis 1 is the offset axis (it runs along a row), the operand's axis 0 is collapsed and is the one the start
    index names. Their conditions `wf` are decided on a program's literal shapes. -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, c)`: the operand at row `idx[r, 0]` (read signed and clamped into `[0, N − 1]`) and
    column `c`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (y : (⟨2, ![R, C]⟩ : Shape).Idx) :
    Host.gather (rowsDims N R C wf) x idx y
      = x (ix2 ⟨min (idx (ix2 (y 0) 0)).toInt.toNat (N - 1), by omega⟩ (y 1)) := by
  unfold Host.gather
  congr 1
  funext a
  refine Fin.ext ?_
  show (rowsDims N R C wf).start y idx a + (rowsDims N R C wf).batchCoord y a + (rowsDims N R C wf).offCoord y a = _
  rw [GatherDims.batchCoord_eq_zero _ _ _ List.not_mem_nil]
  simp only [Nat.add_zero]
  -- the collapsed axis: the clamped start index, no offset
  have h0 : (rowsDims N R C wf).start y idx (0 : Fin 2) + (rowsDims N R C wf).offCoord y (0 : Fin 2)
      = min (idx (ix2 (y 0) 0)).toInt.toNat (N - 1) := by
    rw [GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    have hsi : (rowsDims N R C wf).siIdx y ⟨List.idxOf (0 : Fin 2) (rowsDims N R C wf).startIndexMap,
        List.idxOf_lt_length_iff.2 (List.mem_singleton.mpr rfl)⟩ = ix2 (y 0) 0 := by
      funext b; refine Fin.ext ?_
      match b with
      | ⟨0, _⟩ => rfl
      | ⟨1, _⟩ => rfl
    rw [hsi]
    rfl
  -- the offset axis: start 0, the result's own column
  have h1 : (rowsDims N R C wf).start y idx (1 : Fin 2) + (rowsDims N R C wf).offCoord y (1 : Fin 2)
      = (y 1).val := by
    have hne : ¬ ((1 : Fin 2) = 0) := by decide
    have hstart : (rowsDims N R C wf).start y idx (1 : Fin 2) = 0 := by
      unfold GatherDims.start
      rw [dif_neg (fun h => hne (List.mem_singleton.mp h))]
    have hkept : (1 : Fin 2) ∈ (rowsDims N R C wf).sKept :=
      (GatherDims.mem_sKept _ _).mpr ⟨fun h => hne (List.mem_singleton.mp h), List.not_mem_nil⟩
    have hoff : (rowsDims N R C wf).offCoord y (1 : Fin 2) = (y 1).val := by
      unfold GatherDims.offCoord
      rw [dif_pos hkept]
      rfl
    rw [hstart, hoff, Nat.zero_add]
  match a with
  | ⟨0, _⟩ => exact h0
  | ⟨1, _⟩ => exact h1

/-- The same read with the result index given by its coordinates `(r, c)`. -/
theorem gather_rows_apply_ix2 {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowsDims N R C wf) x idx (ix2 r c)
      = x (ix2 ⟨min (idx (ix2 r 0)).toInt.toNat (N - 1), by omega⟩ c) :=
  gather_rows_apply hN wf x idx (ix2 r c)

end Rows

section Take1
variable {α : Type}

/-- The dimension numbers of a gather of single elements of a flat array: operand `[N]`, start indices `[R, 1]`, result
    `[R]`; no offset axis, the operand's only axis is collapsed and is the one the start index names. -/
abbrev take1Dims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE ELEMENT GATHER READ AT `r`: the operand at `idx[r, 0]`, read signed and clamped into `[0, N − 1]`. -/
theorem gather_take1_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (y : (⟨1, ![R]⟩ : Shape).Idx) :
    Host.gather (take1Dims N R wf) x idx y
      = x (ix1 ⟨min (idx (ix2 (y 0) 0)).toInt.toNat (N - 1), by omega⟩) := by
  unfold Host.gather
  congr 1
  funext a
  obtain rfl : a = 0 := Subsingleton.elim _ _
  refine Fin.ext ?_
  show (take1Dims N R wf).start y idx 0 + (take1Dims N R wf).batchCoord y 0 + (take1Dims N R wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (take1Dims N R wf).startIndexMap from List.mem_singleton.mpr rfl)]
  have hsi : (take1Dims N R wf).siIdx y ⟨List.idxOf (0 : Fin 1) (take1Dims N R wf).startIndexMap,
      List.idxOf_lt_length_iff.2 (List.mem_singleton.mpr rfl)⟩ = ix2 (y 0) 0 := by
    funext b; refine Fin.ext ?_
    match b with
    | ⟨0, _⟩ => rfl
    | ⟨1, _⟩ => rfl
  rw [hsi]
  rfl

/-- The same read with the result index given by its coordinate `r`. -/
theorem gather_take1_apply_ix1 {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (take1Dims N R wf) x idx (ix1 r)
      = x (ix1 ⟨min (idx (ix2 r 0)).toInt.toNat (N - 1), by omega⟩) :=
  gather_take1_apply hN wf x idx (ix1 r)

end Take1

end Cert.LibRows
-- ==== Proof.LibLayout.lean ====
/-
  Small layout operations read at an index, and the gather of rows under a row-wise map.

  A reshape keeps the elements in row-major order, so a vector `[n]` reshaped to a single row `[1, n]` or to a single
  column `[n, 1]` (and back) reads the same element at the matching position; a broadcast along a new unit axis does the
  same. A unit-stride slice reads the operand at the index shifted by the offsets: the row blocks `0–63`, `64–127`, `128`
  and `129` of a `130 × 64` matrix, and the first half of a flat array. Gathering whole rows commutes with any map that
  acts on each row separately, because the gathered row is a row of the operand.
-/
import Idealize.ShloMosaic.Lib.ValueIdx
import Idealize.ShloMosaic.Lib.Pipeline.Value
import proofs.«138072_j22995254902939_2_alg».proof.Proof.LibRows

namespace Cert.LibLayout

open Idealize.ShloMosaic Idealize.ShloMosaic.ValueIdx Cert.LibRows

/-! ## Gathering rows commutes with a row-wise map -/

section RowsMap
variable {α β : Type}

/-- GATHERING ROWS COMMUTES WITH A ROW-WISE MAP: if every row of the operand is the image under `f` of the matching row of
    `x`, then every gathered row is the image under `f` of the matching gathered row of `x`. -/
theorem gather_rows_map {N R C D w : Nat} (hN : 0 < N)
    (wfC : GatherDims.WF ⟨2, ![N, C]⟩ ⟨2, ![R, 1]⟩ ⟨2, ![R, C]⟩ [1] [0] [] [0] [] 1 ![1, C])
    (wfD : GatherDims.WF ⟨2, ![N, D]⟩ ⟨2, ![R, 1]⟩ ⟨2, ![R, D]⟩ [1] [0] [] [0] [] 1 ![1, D])
    (f : (Fin C → α) → Fin D → β) (x : (⟨2, ![N, C]⟩ : Shape).Idx → α) (idx : IVec ⟨2, ![R, 1]⟩ w) :
    Host.gather (rowsDims N R D wfD) (fun i => f (fun k => x (ix2 (i 0) k)) (i 1)) idx
      = fun y => f (fun k => Host.gather (rowsDims N R C wfC) x idx (ix2 (y 0) k)) (y 1) := by
  funext y
  obtain ⟨r, q, rfl⟩ : ∃ r q, y = ix2 r q := ⟨y 0, y 1, eq_ix2 y⟩
  show Host.gather (rowsDims N R D wfD) (fun i => f (fun k => x (ix2 (i 0) k)) (i 1)) idx (ix2 r q)
      = f (fun k => Host.gather (rowsDims N R C wfC) x idx (ix2 r k)) q
  rw [gather_rows_apply_ix2 hN wfD,
    show (fun k => Host.gather (rowsDims N R C wfC) x idx (ix2 r k))
        = fun k => x (ix2 ⟨min (idx (ix2 r 0)).toInt.toNat (N - 1), by omega⟩ k)
      from funext fun k => gather_rows_apply_ix2 hN wfC x idx r k]
  rfl

end RowsMap

/-! ## Reshapes and broadcasts between a vector, a single row and a single column -/

section Reshape
variable {α : Type}

/-- A vector `[n]` reshaped to a single row `[1, n]`, read at `(0, j)`, is the vector at `j`. -/
theorem shapeCast_row_apply {n : Nat} (x : (⟨1, ![n]⟩ : Shape).Idx → α)
    (h : (⟨1, ![n]⟩ : Shape).ShapeCasts ⟨2, ![1, n]⟩) (j : Fin n) :
    shapeCast ⟨2, ![1, n]⟩ x h (ix2 0 j) = x (ix1 j) := by
  refine shapeCast_apply x h _ _ ?_
  rw [Shape.rowMajor_val_one, Shape.rowMajor_val_two]
  show j.val = 0 * n + j.val
  omega

/-- A vector `[n]` broadcast to a single row `[1, n]` (its axis sent to axis 1), read at `(0, j)`, is the vector at
    `j`. -/
theorem broadcastInDim_row_apply {n : Nat} (x : (⟨1, ![n]⟩ : Shape).Idx → α)
    (h : (⟨1, ![n]⟩ : Shape).BroadcastsInDim ⟨2, ![1, n]⟩ ![1]) (j : Fin n) :
    broadcastInDim ⟨2, ![1, n]⟩ ![1] h x (ix2 0 j) = x (ix1 j) := by
  refine broadcastInDim_apply _ h x _ _ (fun a => ?_)
  obtain rfl : a = 0 := Subsingleton.elim _ _
  show j.val = if n = 1 then 0 else j.val
  have := j.isLt
  split <;> omega

/-- A vector `[r]` reshaped to a single column `[r, 1]`, read at `(e, 0)`, is the vector at `e`. -/
theorem shapeCast_col_apply {r : Nat} (x : (⟨1, ![r]⟩ : Shape).Idx → α)
    (h : (⟨1, ![r]⟩ : Shape).ShapeCasts ⟨2, ![r, 1]⟩) (e : Fin r) :
    shapeCast ⟨2, ![r, 1]⟩ x h (ix2 e 0) = x (ix1 e) := by
  refine shapeCast_apply x h _ _ ?_
  rw [Shape.rowMajor_val_one, Shape.rowMajor_val_two]
  show e.val = e.val * 1 + 0
  omega

/-- A vector `[r]` broadcast to a single column `[r, 1]` (its axis sent to axis 0), read at `(e, 0)`, is the vector at
    `e`. -/
theorem broadcastInDim_col_apply {r : Nat} (x : (⟨1, ![r]⟩ : Shape).Idx → α)
    (h : (⟨1, ![r]⟩ : Shape).BroadcastsInDim ⟨2, ![r, 1]⟩ ![0]) (e : Fin r) :
    broadcastInDim ⟨2, ![r, 1]⟩ ![0] h x (ix2 e 0) = x (ix1 e) := by
  refine broadcastInDim_apply _ h x _ _ (fun a => ?_)
  obtain rfl : a = 0 := Subsingleton.elim _ _
  show e.val = if r = 1 then 0 else e.val
  have := e.isLt
  split <;> omega

/-- A single row `[1, n]` reshaped to a vector `[n]`, read at `j`, is the row at `(0, j)`. -/
theorem shapeCast_unrow_apply {n : Nat} (x : (⟨2, ![1, n]⟩ : Shape).Idx → α)
    (h : (⟨2, ![1, n]⟩ : Shape).ShapeCasts ⟨1, ![n]⟩) (j : Fin n) :
    shapeCast ⟨1, ![n]⟩ x h (ix1 j) = x (ix2 0 j) := by
  refine shapeCast_apply x h _ _ ?_
  rw [Shape.rowMajor_val_one, Shape.rowMajor_val_two]
  show 0 * n + j.val = j.val
  omega

/-- A single column `[r, 1]` reshaped to a vector `[r]`, read at `e`, is the column at `(e, 0)`. -/
theorem shapeCast_uncol_apply {r : Nat} (x : (⟨2, ![r, 1]⟩ : Shape).Idx → α)
    (h : (⟨2, ![r, 1]⟩ : Shape).ShapeCasts ⟨1, ![r]⟩) (e : Fin r) :
    shapeCast ⟨1, ![r]⟩ x h (ix1 e) = x (ix2 e 0) := by
  refine shapeCast_apply x h _ _ ?_
  rw [Shape.rowMajor_val_one, Shape.rowMajor_val_two]
  show e.val * 1 + 0 = e.val
  omega

end Reshape

/-! ## Unit-stride slices: row blocks of a matrix, a prefix of a flat array -/

section Slice
variable {α : Type}

/-- A block of `m` whole rows of a matrix `[M, C]` starting at row `o`, read at `(k, j)`, is the matrix at row `o + k`
    (given as any `i` with that value) and column `j`. -/
theorem slice_rows_apply {M m C o : Nat} (x : (⟨2, ![M, C]⟩ : Shape).Idx → α)
    (h : (⟨2, ![M, C]⟩ : Shape).Slices ![o, 0] ⟨2, ![m, C]⟩) (k : Fin m) (j : Fin C) (i : Fin M)
    (hi : i.val = o + k.val) :
    extractStridedSlice ⟨2, ![m, C]⟩ ![o, 0] x h (ix2 k j) = x (ix2 i j) := by
  refine extractStridedSlice_apply _ x h _ _ (fun a => ?_)
  match a with
  | ⟨0, _⟩ => exact hi
  | ⟨1, _⟩ => exact (Nat.zero_add j.val).symm

/-- Rows `0–63` of a `130 × 64` matrix, read at `(k, j)`: the matrix at `(k, j)`. -/
theorem slice_rows_0_apply (x : (⟨2, ![130, 64]⟩ : Shape).Idx → α)
    (h : (⟨2, ![130, 64]⟩ : Shape).Slices ![0, 0] ⟨2, ![64, 64]⟩) (k j : Fin 64) :
    extractStridedSlice ⟨2, ![64, 64]⟩ ![0, 0] x h (ix2 k j) = x (ix2 ⟨k.val, by omega⟩ j) :=
  slice_rows_apply x h k j ⟨k.val, by omega⟩ (Nat.zero_add k.val).symm

/-- Rows `64–127` of a `130 × 64` matrix, read at `(k, j)`: the matrix at `(k + 64, j)`. -/
theorem slice_rows_64_apply (x : (⟨2, ![130, 64]⟩ : Shape).Idx → α)
    (h : (⟨2, ![130, 64]⟩ : Shape).Slices ![64, 0] ⟨2, ![64, 64]⟩) (k j : Fin 64) :
    extractStridedSlice ⟨2, ![64, 64]⟩ ![64, 0] x h (ix2 k j) = x (ix2 ⟨k.val + 64, by omega⟩ j) :=
  slice_rows_apply x h k j ⟨k.val + 64, by omega⟩ (Nat.add_comm k.val 64)

/-- Row `128` of a `130 × 64` matrix as a single row, read at `(0, j)`: the matrix at `(128, j)`. -/
theorem slice_rows_128_apply (x : (⟨2, ![130, 64]⟩ : Shape).Idx → α)
    (h : (⟨2, ![130, 64]⟩ : Shape).Slices ![128, 0] ⟨2, ![1, 64]⟩) (j : Fin 64) :
    extractStridedSlice ⟨2, ![1, 64]⟩ ![128, 0] x h (ix2 0 j) = x (ix2 ⟨128, by omega⟩ j) :=
  slice_rows_apply x h 0 j ⟨128, by omega⟩ rfl

/-- Row `129` of a `130 × 64` matrix as a single row, read at `(0, j)`: the matrix at `(129, j)`. -/
theorem slice_rows_129_apply (x : (⟨2, ![130, 64]⟩ : Shape).Idx → α)
    (h : (⟨2, ![130, 64]⟩ : Shape).Slices ![129, 0] ⟨2, ![1, 64]⟩) (j : Fin 64) :
    extractStridedSlice ⟨2, ![1, 64]⟩ ![129, 0] x h (ix2 0 j) = x (ix2 ⟨129, by omega⟩ j) :=
  slice_rows_apply x h 0 j ⟨129, by omega⟩ rfl

/-- A block of `m` consecutive elements of a flat array `[M]` starting at `o`, read at `e`, is the array at `o + e`
    (given as any `i` with that value). -/
theorem slice_flat_apply {M m o : Nat} (x : (⟨1, ![M]⟩ : Shape).Idx → α)
    (h : (⟨1, ![M]⟩ : Shape).Slices ![o] ⟨1, ![m]⟩) (e : Fin m) (i : Fin M) (hi : i.val = o + e.val) :
    extractStridedSlice ⟨1, ![m]⟩ ![o] x h (ix1 e) = x (ix1 i) := by
  refine extractStridedSlice_apply _ x h _ _ (fun a => ?_)
  match a with
  | ⟨0, _⟩ => exact hi

/-- The first `800000` elements of a flat array of `1600000`, read at `e`: the array at `e`. -/
theorem slice_flat_0_apply (x : (⟨1, ![1600000]⟩ : Shape).Idx → α)
    (h : (⟨1, ![1600000]⟩ : Shape).Slices ![0] ⟨1, ![800000]⟩) (e : Fin 800000) :
    extractStridedSlice ⟨1, ![800000]⟩ ![0] x h (ix1 e) = x (ix1 ⟨e.val, by omega⟩) :=
  slice_flat_apply x h e ⟨e.val, by omega⟩ (Nat.zero_add e.val).symm

end Slice

end Cert.LibLayout
-- ==== Proof.RopeTables.lean ====
/-
  The five lane tables the kernel is launched with, read lane by lane.

  Before the launch the host builds, for each of the 384 lanes k, the frequency of the lane, f_(k / 12), gathered from
  the 32 frequencies through a constant table of start indices (lane k starts at k / 12: never negative, never past 31,
  so neither the wrap of a negative index nor the clamp moves it), and multiplies it by three constant one-hot tables,
  one per axis: lane k of table a holds f_(k / 12) where (k / 4) % 3 = a and f_(k / 12) · 0 elsewhere. Two more constant
  tables mark the cosine lanes (k even) and the sine lanes (k odd). Each is a vector of 384 reshaped to one row.
  The constant tables are literal words, 1.0 and 0.0; which lanes hold which is decided lane by lane.
-/
import proofs.«138072_j22995254902939_2_alg».proof.Proof.Gen.KernelIdeal.Frame
import proofs.«138072_j22995254902939_2_alg».proof.Proof.LibRows
import proofs.«138072_j22995254902939_2_alg».proof.Proof.LibLayout
import proofs.«138072_j22995254902939_2_alg».proof.Proof.RopeSpec
import Idealize.ShloMosaic.Lib.StableHlo.Run
import Idealize.ShloMosaic.Lib.IdealHost

noncomputable section

namespace Cert.KernelIdeal.Tables

open Cert.KernelIdeal Cert.KernelIdeal.Gen Idealize.ShloMosaic Idealize.ShloMosaic.TcCoe Idealize.SL.Sem
open Idealize.ShloMosaic.StableHlo Idealize.ShloMosaic.ValueIdx Cert.Rope

/-! ## The literal tables, lane by lane -/

/-- The start indices: lane `k` starts at `k / 12`. -/
theorem starts_lit : ∀ k : Fin 384, lit0 k = BitVec.ofNat 32 (k.val / 12) := by decide +kernel

/-- What the host makes of a start index — 32 added if negative, then read signed and clamped to `[0, 31]` — is still
    `k / 12`. -/
theorem start_eq : ∀ k : Fin 384,
    min (Scalar.select (IntOp.cmpi .slt (lit0 k) 0#32) (IntOp.addi (lit0 k) 32#32) (lit0 k)).toInt.toNat (32 - 1) = k.val / 12 := by
  decide +kernel

/-- The one-hot table of axis 0. -/
theorem axis0_lit : ∀ k : Fin 384, lit1 k = if k.val / 4 % 3 = 0 then 0x3F800000#32 else 0x00000000#32 := by decide +kernel
/-- The one-hot table of axis 1. -/
theorem axis1_lit : ∀ k : Fin 384, lit2 k = if k.val / 4 % 3 = 1 then 0x3F800000#32 else 0x00000000#32 := by decide +kernel
/-- The one-hot table of axis 2. -/
theorem axis2_lit : ∀ k : Fin 384, lit3 k = if k.val / 4 % 3 = 2 then 0x3F800000#32 else 0x00000000#32 := by decide +kernel
/-- The cosine lanes. -/
theorem cos_lit : ∀ k : Fin 384, lit4 k = if k.val % 2 = 0 then 0x3F800000#32 else 0x00000000#32 := by decide +kernel
/-- The sine lanes. -/
theorem sin_lit : ∀ k : Fin 384, lit5 k = if k.val % 2 = 0 then 0x00000000#32 else 0x3F800000#32 := by decide +kernel

/-- The words of 1.0 and 0.0 are the extended reals one and zero. -/
theorem word_one_zero (p : Prop) [Decidable p] :
    Ideal.ofBits .f32 (if p then 0x3F800000#32 else 0x00000000#32) = if p then (1 : EReal) else 0 := by
  split
  · exact Ideal.ofBits_one_f32
  · exact Ideal.ofBits_zero_f32

theorem word_zero_one (p : Prop) [Decidable p] :
    Ideal.ofBits .f32 (if p then 0x00000000#32 else 0x3F800000#32) = if p then (0 : EReal) else 1 := by
  split
  · exact Ideal.ofBits_zero_f32
  · exact Ideal.ofBits_one_f32

/-- A flat index of a vector of 384 is its one coordinate. -/
theorem flat_ix1 (k : Fin 384) : S384.rowMajor (ix1 k) = k := Fin.ext (Shape.rowMajor_val_one _)

/-! ## The host's terms -/

/-- The start indices as the gather takes them: a column `[384, 1]`. -/
def starts : IVec S384x1 32 :=
  broadcastInDim S384x1 ![0] bcast_S384_S384x1_0
    (select (cmpi .slt (fun i => lit0 (S384.rowMajor i)) (broadcastInDim S384 ![] bcast_S_S384 (constantI S_ 32 0#32)))
      (addi (fun i => lit0 (S384.rowMajor i)) (broadcastInDim S384 ![] bcast_S_S384 (constantI S_ 32 32#32)))
      (fun i => lit0 (S384.rowMajor i)))

/-- The frequency of every lane. -/
def freqs (dv : S32.Idx → EReal) : S384.Idx → EReal :=
  Host.gather gather_S32_S384x1_S384_n_0_n_n_0_1_1 dv starts

/-- A frequency table: the lanes' frequencies times a constant table, as one row. -/
def freqRow (lit : Fin 384 → BitVec 32) (dv : S32.Idx → EReal) : S1x384.Idx → EReal :=
  shapeCast S1x384 (mulf (F := Ideal) (freqs dv) (fun i => FloatOps.ofBits (F := Ideal) .f32 (lit (S384.rowMajor i)))) shapeCasts_S384_S1x384

/-- A constant table as one row. -/
def constRow (lit : Fin 384 → BitVec 32) : S1x384.Idx → EReal :=
  shapeCast S1x384 (fun i => FloatOps.ofBits (F := Ideal) .f32 (lit (S384.rowMajor i))) shapeCasts_S384_S1x384

/-- Lane `k`'s frequency is frequency `k / 12`. -/
theorem freqs_apply (dv : S32.Idx → EReal) (k : Fin 384) :
    freqs dv (ix1 k) = dv (ix1 ⟨k.val / 12, by have := k.isLt; omega⟩) := by
  unfold freqs
  rw [show gather_S32_S384x1_S384_n_0_n_n_0_1_1 = Cert.LibRows.take1Dims 32 384 gather_S32_S384x1_S384_n_0_n_n_0_1_1_wf from rfl,
    Cert.LibRows.gather_take1_apply_ix1 (by decide)]
  congr 2
  apply Fin.ext
  show min (starts (ix2 k 0)).toInt.toNat (32 - 1) = k.val / 12
  unfold starts
  rw [Cert.LibLayout.broadcastInDim_col_apply]
  show min (Scalar.select (IntOp.cmpi .slt (lit0 (S384.rowMajor (ix1 k))) 0#32) (IntOp.addi (lit0 (S384.rowMajor (ix1 k))) 32#32)
    (lit0 (S384.rowMajor (ix1 k)))).toInt.toNat (32 - 1) = k.val / 12
  rw [flat_ix1]
  exact start_eq k

/-- A frequency table at lane `k`: frequency `k / 12` times the constant's value there. -/
theorem freqRow_apply (lit : Fin 384 → BitVec 32) (dv : S32.Idx → EReal) (k : Fin 384) :
    freqRow lit dv (ix2 0 k) = dv (ix1 ⟨k.val / 12, by have := k.isLt; omega⟩) * Ideal.ofBits .f32 (lit k) := by
  unfold freqRow
  rw [Cert.LibLayout.shapeCast_row_apply]
  show freqs dv (ix1 k) * Ideal.ofBits .f32 (lit (S384.rowMajor (ix1 k))) = _
  rw [freqs_apply, flat_ix1]

/-- A constant table at lane `k`. -/
theorem constRow_apply (lit : Fin 384 → BitVec 32) (k : Fin 384) :
    constRow lit (ix2 0 k) = Ideal.ofBits .f32 (lit k) := by
  unfold constRow
  rw [Cert.LibLayout.shapeCast_row_apply]
  show Ideal.ofBits .f32 (lit (S384.rowMajor (ix1 k))) = _
  rw [flat_ix1]

/-! ## The arrays the kernel's five table windows stage -/

variable (m : (ℓ : Loc nD τ sig) → Buf (Elt Ideal) ℓ)

/-- The frequencies the program is launched with, on core `c`. -/
abbrev freqArg (c : Dev nD) : S32.Idx → EReal := m ((c : Thread nD τ).loc main_arg1)
/-- The points the program is launched with, on core `c`. -/
abbrev pointArg (c : Dev nD) : S4x65536x3.Idx → EReal := m ((c : Thread nD τ).loc main_arg0)

set_option maxHeartbeats 1000000 in
theorem V_axis0 (c : Dev nD) : (V m c main_v8 : S1x384.Idx → EReal) = freqRow lit1 (m ((c : Thread nD τ).loc main_arg1)) := by
  show StableHlo.after hostOps0 (fun b => m (c, b)) (Proc.devRef .tc main_v8) = _
  after_results
  rfl

set_option maxHeartbeats 1000000 in
theorem V_axis1 (c : Dev nD) : (V m c main_v10 : S1x384.Idx → EReal) = freqRow lit2 (m ((c : Thread nD τ).loc main_arg1)) := by
  show StableHlo.after hostOps0 (fun b => m (c, b)) (Proc.devRef .tc main_v10) = _
  after_results
  rfl

set_option maxHeartbeats 1000000 in
theorem V_axis2 (c : Dev nD) : (V m c main_v12 : S1x384.Idx → EReal) = freqRow lit3 (m ((c : Thread nD τ).loc main_arg1)) := by
  show StableHlo.after hostOps0 (fun b => m (c, b)) (Proc.devRef .tc main_v12) = _
  after_results
  rfl

set_option maxHeartbeats 1000000 in
theorem V_cos (c : Dev nD) : (V m c main_v13 : S1x384.Idx → EReal) = constRow lit4 := by
  show StableHlo.after hostOps0 (fun b => m (c, b)) (Proc.devRef .tc main_v13) = _
  after_results
  rfl

set_option maxHeartbeats 1000000 in
theorem V_sin (c : Dev nD) : (V m c main_v14 : S1x384.Idx → EReal) = constRow lit5 := by
  show StableHlo.after hostOps0 (fun b => m (c, b)) (Proc.devRef .tc main_v14) = _
  after_results
  rfl

/-- The table of axis `a = 0` at lane `k`: the lane's frequency times the one-hot factor. -/
theorem V_axis0_apply (c : Dev nD) (k : Fin 384) :
    (V m c main_v8 : S1x384.Idx → EReal) (ix2 0 k)
      = freqArg m c (ix1 ⟨k.val / 12, by have := k.isLt; omega⟩) * onAxis 0 k.val := by
  rw [V_axis0, freqRow_apply, axis0_lit, word_one_zero]; rfl

theorem V_axis1_apply (c : Dev nD) (k : Fin 384) :
    (V m c main_v10 : S1x384.Idx → EReal) (ix2 0 k)
      = freqArg m c (ix1 ⟨k.val / 12, by have := k.isLt; omega⟩) * onAxis 1 k.val := by
  rw [V_axis1, freqRow_apply, axis1_lit, word_one_zero]; rfl

theorem V_axis2_apply (c : Dev nD) (k : Fin 384) :
    (V m c main_v12 : S1x384.Idx → EReal) (ix2 0 k)
      = freqArg m c (ix1 ⟨k.val / 12, by have := k.isLt; omega⟩) * onAxis 2 k.val := by
  rw [V_axis2, freqRow_apply, axis2_lit, word_one_zero]; rfl

theorem V_cos_apply (c : Dev nD) (k : Fin 384) : (V m c main_v13 : S1x384.Idx → EReal) (ix2 0 k) = cosLane k.val := by
  rw [V_cos, constRow_apply, cos_lit, word_one_zero]; rfl

theorem V_sin_apply (c : Dev nD) (k : Fin 384) : (V m c main_v14 : S1x384.Idx → EReal) (ix2 0 k) = sinLane k.val := by
  rw [V_sin, constRow_apply, sin_lit, word_zero_one]; rfl

end Cert.KernelIdeal.Tables

end
-- ==== Proof.RopeBody.lean ====
/-
  What one launch of the kernel body leaves in its output block, entry by entry.

  The body holds a block of 8192 points (each with its three coordinates) and the five lane tables, each one row of 384.
  It reads the three coordinates as columns [8192, 1], spreads every column along the lanes and every table row down the
  points, and computes pointwise: entry (r, k) of the block is

      cos(x_r · t0_k + y_r · t1_k + z_r · t2_k) · cm_k + sin(x_r · t0_k + y_r · t1_k + z_r · t2_k) · sm_k

  of point r's coordinates and lane k's five table entries.
-/
import proofs.«138072_j22995254902939_2_alg».proof.Proof.Gen.KernelIdeal.Frame
import proofs.«138072_j22995254902939_2_alg».proof.Proof.RopeSpec
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.ValueIdx Cert.Rope

/-- The pointwise combination of three coordinates, three frequency-table entries and the two selection entries. -/
def mix (x y z t0 t1 t2 cm sm : EReal) : EReal :=
  Ideal.cos (x * t0 + y * t1 + z * t2) * cm + Ideal.sin (x * t0 + y * t1 + z * t2) * sm

/-- With the tables' entries on lane `k` it is the lane's value. -/
theorem mix_lane (x y z f : EReal) (k : Nat) :
    mix x y z (f * onAxis 0 k) (f * onAxis 1 k) (f * onAxis 2 k) (cosLane k) (sinLane k) = lane x y z f k := rfl

theorem hz2 : (![0, 0] : Fin 2 → Nat) = fun _ => 0 := funext fun a => by
  match a with
  | ⟨0, _⟩ => rfl
  | ⟨1, _⟩ => rfl

theorem hz3 : (![0, 0, 0] : Fin 3 → Nat) = fun _ => 0 := funext fun a => by
  match a with
  | ⟨0, _⟩ => rfl
  | ⟨1, _⟩ => rfl
  | ⟨2, _⟩ => rfl

/-- A column `[1, 8192, 1]` viewed `[8192, 1]` and spread along the lanes, at `(r, k)`: the column at `r`. -/
theorem col_apply (v : Vec Ideal S1x8192x1 .f32) (h1 : S1x8192x1.ShapeCasts S8192x1) (h2 : S8192x1.Broadcasts S8192x384)
    (r : Fin 8192) (k : Fin 384) :
    broadcastTo S8192x384 (shapeCast S8192x1 v h1) h2 (ix2 r k) = v (ix3 0 r 0) := by
  rw [broadcastTo_apply _ h2 (ix2 r k) (ix2 r 0) (fun a => by
    match a with
    | ⟨0, _⟩ => rfl
    | ⟨1, _⟩ => rfl)]
  refine shapeCast_apply v _ _ _ ?_
  rw [Shape.rowMajor_val_three, Shape.rowMajor_val_two]
  show ((0 : Nat) * 8192 + r.val) * 1 + 0 = r.val * 1 + 0
  omega

/-- A row `[1, 384]` spread down the points, at `(r, k)`: the row at `k`. -/
theorem row_apply (v : Vec Ideal S1x384 .f32) (h1 : S1x384.ShapeCasts S1x384) (h2 : S1x384.Broadcasts S8192x384)
    (r : Fin 8192) (k : Fin 384) :
    broadcastTo S8192x384 (shapeCast S1x384 v h1) h2 (ix2 r k) = v (ix2 0 k) := by
  rw [shapeCast_self]
  exact broadcastTo_apply _ h2 (ix2 r k) (ix2 0 k) (fun a => by
    match a with
    | ⟨0, _⟩ => rfl
    | ⟨1, _⟩ => rfl)

/-- The body's arithmetic is the pointwise combination of the spread columns and rows. -/
theorem pay2_fun (v0 v2 v4 : Vec Ideal S1x8192x1 .f32) (v6 v8 v10 v12 v14 : Vec Ideal S1x384 .f32) :
    k0_pay2 (F := Ideal) v0 v2 v4 v6 v8 v10 v12 v14 = fun j =>
      mix (broadcastTo S8192x384 (shapeCast S8192x1 v0 Facts₀.shapeCasts_S1x8192x1_S8192x1) Facts₀.broadcasts_S8192x1_S8192x384 j)
        (broadcastTo S8192x384 (shapeCast S8192x1 v2 Facts₀.shapeCasts_S1x8192x1_S8192x1) Facts₀.broadcasts_S8192x1_S8192x384 j)
        (broadcastTo S8192x384 (shapeCast S8192x1 v4 Facts₀.shapeCasts_S1x8192x1_S8192x1) Facts₀.broadcasts_S8192x1_S8192x384 j)
        (broadcastTo S8192x384 (shapeCast S1x384 v6 Facts₀.shapeCasts_S1x384_S1x384) Facts₀.broadcasts_S1x384_S8192x384 j)
        (broadcastTo S8192x384 (shapeCast S1x384 v8 Facts₀.shapeCasts_S1x384_S1x384) Facts₀.broadcasts_S1x384_S8192x384 j)
        (broadcastTo S8192x384 (shapeCast S1x384 v10 Facts₀.shapeCasts_S1x384_S1x384) Facts₀.broadcasts_S1x384_S8192x384 j)
        (broadcastTo S8192x384 (shapeCast S1x384 v12 Facts₀.shapeCasts_S1x384_S1x384) Facts₀.broadcasts_S1x384_S8192x384 j)
        (broadcastTo S8192x384 (shapeCast S1x384 v14 Facts₀.shapeCasts_S1x384_S1x384) Facts₀.broadcasts_S1x384_S8192x384 j) := rfl

/-- The body's arithmetic at `(r, k)`. -/
theorem pay2_apply (v0 v2 v4 : Vec Ideal S1x8192x1 .f32) (v6 v8 v10 v12 v14 : Vec Ideal S1x384 .f32) (r : Fin 8192) (k : Fin 384) :
    k0_pay2 (F := Ideal) v0 v2 v4 v6 v8 v10 v12 v14 (ix2 r k)
      = mix (v0 (ix3 0 r 0)) (v2 (ix3 0 r 0)) (v4 (ix3 0 r 0)) (v6 (ix2 0 k)) (v8 (ix2 0 k)) (v10 (ix2 0 k)) (v12 (ix2 0 k)) (v14 (ix2 0 k)) := by
  rw [pay2_fun]
  show mix _ _ _ _ _ _ _ _ = _
  rw [col_apply, col_apply, col_apply, row_apply, row_apply, row_apply, row_apply, row_apply]

/-- The stored value at `(0, r, k)`: the arithmetic's at `(r, k)`. -/
theorem pay1_apply (v : Vec Ideal S8192x384 .f32) (r : Fin 8192) (k : Fin 384) :
    k0_pay1 (F := Ideal) v (ix3 0 r k) = v (ix2 r k) := by
  unfold k0_pay1
  refine shapeCast_apply v _ _ _ ?_
  rw [Shape.rowMajor_val_three, Shape.rowMajor_val_two]
  show r.val * 384 + k.val = ((0 : Nat) * 8192 + r.val) * 384 + k.val
  omega

/-- Coordinate `a` of the points' block, loaded as a column, at `(0, r, 0)`: the block at `(0, r, a)`. -/
theorem ld_col0 (x0 : Vec Ideal S1x8192x3 .f32) (r : Fin 8192) : View.ld x0 r0_0 (ix3 0 r 0) = x0 (ix3 0 r 0) := by
  show x0 (r0_0.emb (ix3 0 r 0)) = _
  congr 1; funext a; apply Fin.ext
  match a with
  | ⟨0, _⟩ => rfl
  | ⟨1, _⟩ => show 0 + 1 * r.val = r.val; omega
  | ⟨2, _⟩ => rfl

theorem ld_col1 (x0 : Vec Ideal S1x8192x3 .f32) (r : Fin 8192) : View.ld x0 r0_1 (ix3 0 r 0) = x0 (ix3 0 r 1) := by
  show x0 (r0_1.emb (ix3 0 r 0)) = _
  congr 1; funext a; apply Fin.ext
  match a with
  | ⟨0, _⟩ => rfl
  | ⟨1, _⟩ => show 0 + 1 * r.val = r.val; omega
  | ⟨2, _⟩ => rfl

theorem ld_col2 (x0 : Vec Ideal S1x8192x3 .f32) (r : Fin 8192) : View.ld x0 r0_2 (ix3 0 r 0) = x0 (ix3 0 r 2) := by
  show x0 (r0_2.emb (ix3 0 r 0)) = _
  congr 1; funext a; apply Fin.ext
  match a with
  | ⟨0, _⟩ => rfl
  | ⟨1, _⟩ => show 0 + 1 * r.val = r.val; omega
  | ⟨2, _⟩ => rfl

/-- WHAT THE BODY LEAVES in the output block at `(0, r, k)`, from the blocks it was launched on. -/
theorem out_apply (x0 : Vec Ideal S1x8192x3 .f32) (x1 x2 x3 x4 x5 : Vec Ideal S1x384 .f32) (r : Fin 8192) (k : Fin 384) :
    out0_6 (F := Ideal) x0 x1 x2 x3 x4 x5 (ix3 0 r k)
      = mix (x0 (ix3 0 r 0)) (x0 (ix3 0 r 1)) (x0 (ix3 0 r 2)) (x1 (ix2 0 k)) (x2 (ix2 0 k)) (x3 (ix2 0 k)) (x4 (ix2 0 k)) (x5 (ix2 0 k)) := by
  unfold out0_6
  rw [View.canon_unit_zero hz3]
  simp only [View.ld_unit_zero (S := S1x384) hz2]
  rw [pay1_apply, pay2_apply, ld_col0, ld_col1, ld_col2]

end Cert.KernelIdeal.Body

end
-- ==== Proof.RopeBlocks.lean ====
/-
  From the blocks to the whole array, and through the last reshape: the kernel computes the code.

  The grid has 4 × 8 points; point (b, q) is launched on points 8192 q … 8192 q + 8191 of batch b — the block (b, q) of the
  points array, all three coordinates — and on the five whole lane tables, and writes block (b, q) of the 384-wide array.
  So what it writes at (r, k) of its block is the lane value of point 8192 q + r of batch b on lane k: every block is a
  piece of ONE array, the code laid flat, and the 32 blocks cover that array. The host then regroups each row of 384 as
  192 × 2, which is the code.
-/
import proofs.«138072_j22995254902939_2_alg».proof.Proof.Gen.KernelIdeal.Frame
import proofs.«138072_j22995254902939_2_alg».proof.Proof.RopeSpec
import proofs.«138072_j22995254902939_2_alg».proof.Proof.RopeTables
import proofs.«138072_j22995254902939_2_alg».proof.Proof.RopeBody
import Idealize.ShloMosaic.Lib.Pipeline.Value
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)
open Cert.Rope Cert.KernelIdeal.Tables Cert.KernelIdeal.Body

variable (m : (ℓ : Loc nD τ sig) → Buf (Elt Ideal) ℓ) (ρ : Dev nD → PrngReg)

/-- The printed index maps, decided over the grid: the points' window moves with the output's on the batch and the
    point axes and stays at 0 on the coordinate axis; the five table windows stay at block (0, 0); the output's block
    indices are within 4 × 8 × 1. -/
theorem idx_facts : ∀ t : Fin cfg0.N,
    win0_0.index t (0 : Fin 3) = win0_6.index t (0 : Fin 3) ∧ win0_0.index t (1 : Fin 3) = win0_6.index t (1 : Fin 3)
    ∧ win0_0.index t (2 : Fin 3) = 0 ∧ win0_6.index t (2 : Fin 3) = 0
    ∧ win0_6.index t (0 : Fin 3) ≤ 3 ∧ win0_6.index t (1 : Fin 3) ≤ 7
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Every block of the output array is some point's. -/
theorem idx_onto : ∀ (q0 : Fin 4) (q1 : Fin 8), ∃ t : Fin cfg0.N, win0_6.index t = ![q0.val, q1.val, 0] :=
  (by decide +kernel : ∀ (q0 : Fin 4) (q1 : Fin 8), ∃ t : Fin grid0.N, win0_6.index t = ![q0.val, q1.val, 0])

/-- An output block whose entries are given at `(0, r, k)` (the block's leading axis has the one index 0). -/
theorem block_ext (X G : S1x8192x384.Idx → EReal) (h : ∀ (r : Fin 8192) (k : Fin 384), X (ix3 0 r k) = G (ix3 0 r k)) : X = G := by
  funext j
  obtain ⟨z, r, k, rfl⟩ : ∃ (z : Fin 1) (r : Fin 8192) (k : Fin 384), j = ix3 z r k := ⟨j 0, j 1, j 2, eq_ix3 j⟩
  obtain rfl : z = 0 := Subsingleton.elim _ _
  exact h r k

/-- WHAT POINT `t` WRITES BACK is block `t` of the code laid flat. -/
theorem flushed_eq (c : Dev nD) (t : Fin cfg0.N) :
    (dats m 0 c).flushed 6 t = ((cfg0.win 6).blk t).view.read (Elt Ideal) (wide (pointArg m c) (freqArg m c)) := by
  show (cfg0.win 6).cut (grid0.coords t) ((dats m 0 c).after 6 t) = _
  rw [after0_6]
  obtain ⟨e00, e01, e02, e62, h60, h61, e10, e11, e20, e21, e30, e31, e40, e41, e50, e51⟩ := idx_facts t
  refine block_ext _ _ (fun r k => ?_)
  show out0_6 (iblk m c 0 t) (iblk m c 1 t) (iblk m c 2 t) (iblk m c 3 t) (iblk m c 4 t) (iblk m c 5 t) (ix3 0 r k)
    = wide (pointArg m c) (freqArg m c) (((cfg0.win 6).blk t).view.emb (ix3 0 r k))
  refine (out_apply (iblk m c 0 t) (iblk m c 1 t) (iblk m c 2 t) (iblk m c 3 t) (iblk m c 4 t) (iblk m c 5 t) r k).trans ?_
  have hr := r.isLt
  have hb : win0_6.index t (0 : Fin 3) < 4 := by omega
  have hq : win0_6.index t (1 : Fin 3) * 8192 + r.val < 65536 := by omega
  -- the points' block: rows 8192 q … 8192 q + 8191 of batch b, all three coordinates
  have hx : ∀ a : Fin 3, iblk m c 0 t (ix3 0 r a)
      = pointArg m c (ix3 ⟨win0_6.index t (0 : Fin 3), hb⟩ ⟨win0_6.index t (1 : Fin 3) * 8192 + r.val, hq⟩ a) := fun a => by
    show V m c main_arg0 (((cfg0.win 0).blk t).view.emb (ix3 0 r a)) = _
    rw [V_main_arg0]
    show m ((c : Thread nD τ).loc main_arg0) _ = m ((c : Thread nD τ).loc main_arg0) _
    congr 1
    funext e; apply Fin.ext
    match e with
    | ⟨0, _⟩ => show win0_0.index t (0 : Fin 3) * 1 + 1 * 0 = win0_6.index t (0 : Fin 3); omega
    | ⟨1, _⟩ => show win0_0.index t (1 : Fin 3) * 8192 + 1 * r.val = win0_6.index t (1 : Fin 3) * 8192 + r.val; omega
    | ⟨2, _⟩ => show win0_0.index t (2 : Fin 3) * 3 + 1 * a.val = a.val; omega
  -- the five table windows: always the whole row
  have ht1 : iblk m c 1 t (ix2 0 k) = (V m c main_v8 : S1x384.Idx → EReal) (ix2 0 k) := by
    show V m c main_v8 (((cfg0.win 1).blk t).view.emb (ix2 0 k)) = _
    congr 1; funext e; apply Fin.ext
    match e with
    | ⟨0, _⟩ => show win0_1.index t (0 : Fin 2) * 1 + 1 * 0 = 0; omega
    | ⟨1, _⟩ => show win0_1.index t (1 : Fin 2) * 384 + 1 * k.val = k.val; omega
  have ht2 : iblk m c 2 t (ix2 0 k) = (V m c main_v10 : S1x384.Idx → EReal) (ix2 0 k) := by
    show V m c main_v10 (((cfg0.win 2).blk t).view.emb (ix2 0 k)) = _
    congr 1; funext e; apply Fin.ext
    match e with
    | ⟨0, _⟩ => show win0_2.index t (0 : Fin 2) * 1 + 1 * 0 = 0; omega
    | ⟨1, _⟩ => show win0_2.index t (1 : Fin 2) * 384 + 1 * k.val = k.val; omega
  have ht3 : iblk m c 3 t (ix2 0 k) = (V m c main_v12 : S1x384.Idx → EReal) (ix2 0 k) := by
    show V m c main_v12 (((cfg0.win 3).blk t).view.emb (ix2 0 k)) = _
    congr 1; funext e; apply Fin.ext
    match e with
    | ⟨0, _⟩ => show win0_3.index t (0 : Fin 2) * 1 + 1 * 0 = 0; omega
    | ⟨1, _⟩ => show win0_3.index t (1 : Fin 2) * 384 + 1 * k.val = k.val; omega
  have ht4 : iblk m c 4 t (ix2 0 k) = (V m c main_v13 : S1x384.Idx → EReal) (ix2 0 k) := by
    show V m c main_v13 (((cfg0.win 4).blk t).view.emb (ix2 0 k)) = _
    congr 1; funext e; apply Fin.ext
    match e with
    | ⟨0, _⟩ => show win0_4.index t (0 : Fin 2) * 1 + 1 * 0 = 0; omega
    | ⟨1, _⟩ => show win0_4.index t (1 : Fin 2) * 384 + 1 * k.val = k.val; omega
  have ht5 : iblk m c 5 t (ix2 0 k) = (V m c main_v14 : S1x384.Idx → EReal) (ix2 0 k) := by
    show V m c main_v14 (((cfg0.win 5).blk t).view.emb (ix2 0 k)) = _
    congr 1; funext e; apply Fin.ext
    match e with
    | ⟨0, _⟩ => show win0_5.index t (0 : Fin 2) * 1 + 1 * 0 = 0; omega
    | ⟨1, _⟩ => show win0_5.index t (1 : Fin 2) * 384 + 1 * k.val = k.val; omega
  -- the output block's entry (0, r, k) is the array's entry (b, 8192 q + r, k)
  have hw : ((cfg0.win 6).blk t).view.emb (ix3 0 r k)
      = (ix3 ⟨win0_6.index t (0 : Fin 3), hb⟩ ⟨win0_6.index t (1 : Fin 3) * 8192 + r.val, hq⟩ k : S4x65536x384.Idx) := by
    funext e; apply Fin.ext
    match e with
    | ⟨0, _⟩ => show win0_6.index t (0 : Fin 3) * 1 + 1 * 0 = win0_6.index t (0 : Fin 3); omega
    | ⟨1, _⟩ => show win0_6.index t (1 : Fin 3) * 8192 + 1 * r.val = win0_6.index t (1 : Fin 3) * 8192 + r.val; omega
    | ⟨2, _⟩ => show win0_6.index t (2 : Fin 3) * 384 + 1 * k.val = k.val; omega
  rw [hx 0, hx 1, hx 2, ht1, ht2, ht3, ht4, ht5, hw, V_axis0_apply, V_axis1_apply, V_axis2_apply, V_cos_apply, V_sin_apply, mix_lane]
  rfl

/-- An index of the flat array is in point `t`'s block iff each coordinate is in the block's range on its axis. -/
theorem mem_blk (t : Fin cfg0.N) (i : S4x65536x384.Idx) :
    i ∈ ((cfg0.win 6).blk t).view.set ↔ ∀ a : Fin 3, win0_6.index t a * S1x8192x384.size a ≤ (i a).val
      ∧ (i a).val < win0_6.index t a * S1x8192x384.size a + S1x8192x384.size a := by
  show i ∈ ((View.whole main_v15).slice (win0_6.rect t)).set ↔ _
  rw [View.set_slice_whole, Rect.mem_set_unit]
  exact Iff.rfl

/-- The 32 blocks cover the flat array: entry `(b, n, k)` is in the block of point `(b, n / 8192)`. -/
theorem cover (i : S4x65536x384.Idx) : ∃ t : Fin cfg0.N, (cfg0.win 6).flush t = true ∧ i ∈ ((cfg0.win 6).blk t).view.set := by
  have hi0 : (i 0).val < 4 := (i 0).isLt
  have hi1 : (i 1).val < 65536 := (i 1).isLt
  have hi2 : (i 2).val < 384 := (i 2).isLt
  obtain ⟨t, ht⟩ := idx_onto ⟨(i 0).val, hi0⟩ ⟨(i 1).val / 8192, by omega⟩
  have q0 : win0_6.index t (0 : Fin 3) = (i 0).val := congrFun ht 0
  have q1 : win0_6.index t (1 : Fin 3) = (i 1).val / 8192 := congrFun ht 1
  have q2 : win0_6.index t (2 : Fin 3) = 0 := congrFun ht 2
  refine ⟨t, flush0_6 t, ?_⟩
  rw [mem_blk]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 8192 ≤ (i 1).val ∧ (i 1).val < win0_6.index t (1 : Fin 3) * 8192 + 8192; omega
  | ⟨2, _⟩ => show win0_6.index t (2 : Fin 3) * 384 ≤ (i 2).val ∧ (i 2).val < win0_6.index t (2 : Fin 3) * 384 + 384; omega

/-- THE ARRAY AFTER THE LAUNCH is the code laid flat. -/
theorem final (c : Dev nD) : (dats m 0 c).arrAt 6 cfg0.N = wide (pointArg m c) (freqArg m c) :=
  (dats m 0 c).arrAt_eq_of_cover 6 (wide (pointArg m c) (freqArg m c)) (fun t _ => flushed_eq m c t) cover

/-- THE RESULT: the host's last line regroups the flat array as the code. -/
theorem tail_eq (c : Dev nD) :
    Pipeline.afterTail₀ cfgs (dats m) 0 (V0 m) [hostOps1] c main_v16 = code (pointArg m c) (freqArg m c) := by
  unfold Pipeline.afterTail₀
  show StableHlo.after hostOps1 _ (Proc.devRef .tc main_v16) = _
  after_results
  have hA : Pipeline.withArrays (cfgs 0).spec c (V0 m c) (fun w => (dats m 0 c).arrAt w (cfgs 0).N) (Proc.devRef .tc main_v15)
      = wide (pointArg m c) (freqArg m c) :=
    (Pipeline.withArrays_arr spec0 launch0.win.arr_inj c _ _ 6).trans (final m c)
  rw [hA]
  exact shapeCast_wide (pointArg m c) (freqArg m c) shapeCasts_S4x65536x384_S4x65536x192x2

/-- THE KERNEL'S RUN, READ: every weakly fair execution terminates with the result array at the code of the arguments as
    launched, and the arguments unchanged. -/
theorem run : θ_run defs (onTc (τ := τ) (main (F := Ideal))) ⟨m, fun _ => 0, ρ⟩ fun r => ∀ c : Dev nD,
      r.2.mem ((c.tc : Thread nD τ).loc main_v16) = code (pointArg m c) (freqArg m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v16 (Pipeline.mem_restRefs_of main_v16 (by decide) (by decide))).trans (tail_eq m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Cert.KernelIdeal.Blocks

end
-- ==== Proof.lean ====
/-
  The three-dimensional rotary position code: a tiled kernel against its array-at-a-time reference, equal on the
  extended reals.

  For points xyz[b, n, a] (a = 0, 1, 2 the axis) and 32 frequencies f_i the code is
      code[b, n, j, c] = cos (xyz[b, n, a] · f_i)  at c = 0,   sin (xyz[b, n, a] · f_i)  at c = 1,
  where feature j = 6 i + 2 a + d names the frequency i = j / 6 and the axis a = (j / 2) % 3 (d duplicates).

  The reference forms all products xyz · f, takes cosine and sine, duplicates each on a new last axis, swaps the axis
  and frequency axes, flattens (32, 3, 2) to 192 features and joins cosine and sine on a last axis (RopeRef).
  The kernel works on rows of 384 lanes, lane k = 2 j + c: the host prepares per lane the frequency f_(k / 12) times a
  one-hot factor for each axis, and two selection rows for even and odd lanes (RopeTables); each launch of the body
  takes 8192 points and computes  cos(x t0 + y t1 + z t2) · cm + sin(x t0 + y t1 + z t2) · sm  lane by lane (RopeBody);
  the 4 × 8 launches tile the array, and the host regroups 384 = 192 × 2 (RopeBlocks). Products with the factors 1 and 0
  and sums with 0 are exact on the extended reals whatever the other operand, so the one-hot sum is the selected product
  and the masked pair the selected function (RopeSpec): the two programs compute one function, and the precondition is
  never opened. Reading the kernel on the extended reals changes none of its operations, so that step owes nothing.
-/
import proofs.«138072_j22995254902939_2_alg».proof.Defs
import proofs.«138072_j22995254902939_2_alg».proof.Proof.Gen.Kernel
import proofs.«138072_j22995254902939_2_alg».proof.Proof.Gen.Kernel.Skeleton
import proofs.«138072_j22995254902939_2_alg».proof.Proof.Gen.Kernel.Launch
import proofs.«138072_j22995254902939_2_alg».proof.Proof.Gen.Kernel.Points
import proofs.«138072_j22995254902939_2_alg».proof.Proof.Gen.Kernel.Frame
import proofs.«138072_j22995254902939_2_alg».proof.Proof.Gen.KernelIdeal
import proofs.«138072_j22995254902939_2_alg».proof.Proof.Gen.KernelIdeal.Skeleton
import proofs.«138072_j22995254902939_2_alg».proof.Proof.Gen.KernelIdeal.Launch
import proofs.«138072_j22995254902939_2_alg».proof.Proof.Gen.KernelIdeal.Points
import proofs.«138072_j22995254902939_2_alg».proof.Proof.Gen.KernelIdeal.Frame
import proofs.«138072_j22995254902939_2_alg».proof.Proof.Gen.ReferenceIdeal
import proofs.«138072_j22995254902939_2_alg».proof.Proof.Gen.Pre_finite_inputs
import proofs.«138072_j22995254902939_2_alg».proof.Proof.Gen.ReferenceIdeal.Run
import proofs.«138072_j22995254902939_2_alg».proof.Proof.Gen.ReferenceIdeal.Read
import proofs.«138072_j22995254902939_2_alg».proof.Proof.RopeSpec
import proofs.«138072_j22995254902939_2_alg».proof.Proof.RopeRef
import proofs.«138072_j22995254902939_2_alg».proof.Proof.RopeBlocks
import Idealize.ShloMosaic.Adequacy
import Idealize.ShloMosaic.Init

noncomputable section

namespace Cert.Proof

open Idealize.ShloMosaic Idealize.ShloMosaic.TcCoe Idealize.SL.Sem

/-- The word-level kernel runs to the end without a fault and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- And the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- Both programs end with the code of their arguments: the kernel by its blocks and the last regrouping, the reference
    by its re-laid cosine and sine arrays. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v19_eq _ _).trans (Cert.ReferenceIdeal.RefRope.result_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
